-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32
  ∧ IdealRules.sign_bit.Statement Cert.KernelIdeal.S256x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S352256 : Shape := ⟨1, ![352256]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S352256 : S_.BroadcastsInDim S352256 (![] : Fin 0 → Fin S352256.rank)
  reducesTo_S352256_S_d0 : S352256.ReducesTo [0] S_

variable [Facts]

def fn_part1 {F : FTy → Type} [FloatOps F] (main_v13 : IVec S_ 1) (main_v16 : IVec S352256 1) : IVec S_ 1 :=
  let main_c_5 : IVec S_ 1 := constantI S_ 1 1#1
  let main_v17 : IVec S_ 1 := (fun x v => Host.reduce IntOp.andi x v reducesTo_S352256_S_d0 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008 .f32) (main_arg3 : FVec F S352256 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S352256 .f32 := Host.absf main_arg3
  let main_cst_4 : FVec F S_ .f32 := constant S_ .f32 0x7F800000#32
  let main_v15 : FVec F S352256 .f32 := broadcastInDim S352256 ![] bcast_S_S352256 main_cst_4
  let main_v16 : IVec S352256 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S352256 : Shape := ⟨1, ![352256]⟩
abbrev S11008x32 : Shape := ⟨2, ![11008, 32]⟩
abbrev S256x4096 : Shape := ⟨2, ![256, 4096]⟩
abbrev S256x32 : Shape := ⟨2, ![256, 32]⟩
abbrev S256x128 : Shape := ⟨2, ![256, 128]⟩
abbrev S256x1 : Shape := ⟨2, ![256, 1]⟩
abbrev S8192x4096 : Shape := ⟨2, ![8192, 4096]⟩
abbrev S1x11008 : Shape := ⟨2, ![1, 11008]⟩
abbrev S8192x11008 : Shape := ⟨2, ![8192, 11008]⟩
abbrev S1024x4096 : Shape := ⟨2, ![1024, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S352256, .f32⟩
  | .hbm, ⟨4, _⟩ => ⟨S11008x32, .f32⟩
  | .hbm, ⟨5, _⟩ => ⟨S11008x4096, .bf16⟩
  | .hbm, ⟨6, _⟩ => ⟨S8192x4096, .f32⟩
  | .hbm, ⟨7, _⟩ => ⟨S8192x4096, .bf16⟩
  | .hbm, ⟨8, _⟩ => ⟨S1x11008, .f32⟩
  | .hbm, ⟨9, _⟩ => ⟨S8192x11008, .f32⟩
  | .hbm, ⟨10, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x32, .f32⟩
  | .local _ .vmem, ⟨3, _⟩ => ⟨S256x32, .f32⟩
  | .local _ .vmem, ⟨4, _⟩ => ⟨S256x4096, .bf16⟩
  | .local _ .vmem, ⟨5, _⟩ => ⟨S256x4096, .bf16⟩
  | .local _ .vmem, ⟨6, _⟩ => ⟨S1024x4096, .bf16⟩
  | .local _ .vmem, ⟨7, _⟩ => ⟨S1024x4096, .bf16⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [BitOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S352256_S11008x32 : S352256.ShapeCasts S11008x32
  inb_S256x4096_S256x128_0_0 : ∀ a, (![0, 0] : Fin 2 → Nat) a + S256x128.size a ≤ S256x4096.size a
  h_S256x128 : 0 < S256x128.numel
  inb_S256x32_S256x1_0_0 : ∀ a, (![0, 0] : Fin 2 → Nat) a + S256x1.size a ≤ S256x32.size a
  h_S256x1 : 0 < S256x1.numel
  shapeCasts_S256x1_S256x1 : S256x1.ShapeCasts S256x1
  broadcasts_S256x1_S256x128 : S256x1.Broadcasts S256x128
  bitsLt_bf16_f32 : FTy.bits .bf16 < FTy.bits .f32
  packedbf16_S256x4096_S256x128_0_0 : (Rect.unit (s := S256x4096) ![0, 0] S256x128.size inb_S256x4096_S256x128_0_0).PackedRows (EltTy.packing .bf16)
  inb_S256x4096_S256x128_0_128 : ∀ a, (![0, 128] : Fin 2 → Nat) a + S256x128.size a ≤ S256x4096.size a
  inb_S256x32_S256x1_0_1 : ∀ a, (![0, 1] : Fin 2 → Nat) a + S256x1.size a ≤ S256x32.size a
  packedbf16_S256x4096_S256x128_0_128 : (Rect.unit (s := S256x4096) ![0, 128] S256x128.size inb_S256x4096_S256x128_0_128).PackedRows (EltTy.packing .bf16)
  inb_S256x4096_S256x128_0_256 : ∀ a, (![0, 256] : Fin 2 → Nat) a + S256x128.size a ≤ S256x4096.size a
  inb_S256x32_S256x1_0_2 : ∀ a, (![0, 2] : Fin 2 → Nat) a + S256x1.size a ≤ S256x32.size a
  packedbf16_S256x4096_S256x128_0_256 : (Rect.unit (s := S256x4096) ![0, 256] S256x128.size inb_S256x4096_S256x128_0_256).PackedRows (EltTy.packing .bf16)
  inb_S256x4096_S256x128_0_384 : ∀ a, (![0, 384] : Fin 2 → Nat) a + S256x128.size a ≤ S256x4096.size a
  inb_S256x32_S256x1_0_3 : ∀ a, (![0, 3] : Fin 2 → Nat) a + S256x1.size a ≤ S256x32.size a
  packedbf16_S256x4096_S256x128_0_384 : (Rect.unit (s := S256x4096) ![0, 384] S256x128.size inb_S256x4096_S256x128_0_384).PackedRows (EltTy.packing .bf16)
  inb_S256x4096_S256x128_0_512 : ∀ a, (![0, 512] : Fin 2 → Nat) a + S256x128.size a ≤ S256x4096.size a
  inb_S256x32_S256x1_0_4 : ∀ a, (![0, 4] : Fin 2 → Nat) a + S256x1.size a ≤ S256x32.size a
  packedbf16_S256x4096_S256x128_0_512 : (Rect.unit (s := S256x4096) ![0, 512] S256x128.size inb_S256x4096_S256x128_0_512).PackedRows (EltTy.packing .bf16)
  inb_S256x4096_S256x128_0_640 : ∀ a, (![0, 640] : Fin 2 → Nat) a + S256x128.size a ≤ S256x4096.size a
  inb_S256x32_S256x1_0_5 : ∀ a, (![0, 5] : Fin 2 → Nat) a + S256x1.size a ≤ S256x32.size a
  packedbf16_S256x4096_S256x128_0_640 : (Rect.unit (s := S256x4096) ![0, 640] S256x128.size inb_S256x4096_S256x128_0_640).PackedRows (EltTy.packing .bf16)
  inb_S256x4096_S256x128_0_768 : ∀ a, (![0, 768] : Fin 2 → Nat) a + S256x128.size a ≤ S256x4096.size a
  inb_S256x32_S256x1_0_6 : ∀ a, (![0, 6] : Fin 2 → Nat) a + S256x1.size a ≤ S256x32.size a
  packedbf16_S256x4096_S256x128_0_768 : (Rect.unit (s := S256x4096) ![0, 768] S256x128.size inb_S256x4096_S256x128_0_768).PackedRows (EltTy.packing .bf16)
  inb_S256x4096_S256x128_0_896 : ∀ a, (![0, 896] : Fin 2 → Nat) a + S256x128.size a ≤ S256x4096.size a
  inb_S256x32_S256x1_0_7 : ∀ a, (![0, 7] : Fin 2 → Nat) a + S256x1.size a ≤ S256x32.size a
  packedbf16_S256x4096_S256x128_0_896 : (Rect.unit (s := S256x4096) ![0, 896] S256x128.size inb_S256x4096_S256x128_0_896).PackedRows (EltTy.packing .bf16)
  inb_S256x4096_S256x128_0_1024 : ∀ a, (![0, 1024] : Fin 2 → Nat) a + S256x128.size a ≤ S256x4096.size a
  inb_S256x32_S256x1_0_8 : ∀ a, (![0, 8] : Fin 2 → Nat) a + S256x1.size a ≤ S256x32.size a
  packedbf16_S256x4096_S256x128_0_1024 : (Rect.unit (s := S256x4096) ![0, 1024] S256x128.size inb_S256x4096_S256x128_0_1024).PackedRows (EltTy.packing .bf16)
  inb_S256x4096_S256x128_0_1152 : ∀ a, (![0, 1152] : Fin 2 → Nat) a + S256x128.size a ≤ S256x4096.size a
  inb_S256x32_S256x1_0_9 : ∀ a, (![0, 9] : Fin 2 → Nat) a + S256x1.size a ≤ S256x32.size a
  packedbf16_S256x4096_S256x128_0_1152 : (Rect.unit (s := S256x4096) ![0, 1152] S256x128.size inb_S256x4096_S256x128_0_1152).PackedRows (EltTy.packing .bf16)
  inb_S256x4096_S256x128_0_1280 : ∀ a, (![0, 1280] : Fin 2 → Nat) a + S256x128.size a ≤ S256x4096.size a
  inb_S256x32_S256x1_0_10 : ∀ a, (![0, 10] : Fin 2 → Nat) a + S256x1.size a ≤ S256x32.size a
  packedbf16_S256x4096_S256x128_0_1280 : (Rect.unit (s := S256x4096) ![0, 1280] S256x128.size inb_S256x4096_S256x128_0_1280).PackedRows (EltTy.packing .bf16)
  inb_S256x4096_S256x128_0_1408 : ∀ a, (![0, 1408] : Fin 2 → Nat) a + S256x128.size a ≤ S256x4096.size a
  inb_S256x32_S256x1_0_11 : ∀ a, (![0, 11] : Fin 2 → Nat) a + S256x1.size a ≤ S256x32.size a
  packedbf16_S256x4096_S256x128_0_1408 : (Rect.unit (s := S256x4096) ![0, 1408] S256x128.size inb_S256x4096_S256x128_0_1408).PackedRows (EltTy.packing .bf16)
  inb_S256x4096_S256x128_0_1536 : ∀ a, (![0, 1536] : Fin 2 → Nat) a + S256x128.size a ≤ S256x4096.size a
  inb_S256x32_S256x1_0_12 : ∀ a, (![0, 12] : Fin 2 → Nat) a + S256x1.size a ≤ S256x32.size a
  packedbf16_S256x4096_S256x128_0_1536 : (Rect.unit (s := S256x4096) ![0, 1536] S256x128.size inb_S256x4096_S256x128_0_1536).PackedRows (EltTy.packing .bf16)
  inb_S256x4096_S256x128_0_1664 : ∀ a, (![0, 1664] : Fin 2 → Nat) a + S256x128.size a ≤ S256x4096.size a
  inb_S256x32_S256x1_0_13 : ∀ a, (![0, 13] : Fin 2 → Nat) a + S256x1.size a ≤ S256x32.size a
  packedbf16_S256x4096_S256x128_0_1664 : (Rect.unit (s := S256x4096) ![0, 1664] S256x128.size inb_S256x4096_S256x128_0_1664).PackedRows (EltTy.packing .bf16)
  inb_S256x4096_S256x128_0_1792 : ∀ a, (![0, 1792] : Fin 2 → Nat) a + S256x128.size a ≤ S256x4096.size a
  inb_S256x32_S256x1_0_14 : ∀ a, (![0, 14] : Fin 2 → Nat) a + S256x1.size a ≤ S256x32.size a
  packedbf16_S256x4096_S256x128_0_1792 : (Rect.unit (s := S256x4096) ![0, 1792] S256x128.size inb_S256x4096_S256x128_0_1792).PackedRows (EltTy.packing .bf16)
  inb_S256x4096_S256x128_0_1920 : ∀ a, (![0, 1920] : Fin 2 → Nat) a + S256x128.size a ≤ S256x4096.size a
  inb_S256x32_S256x1_0_15 : ∀ a, (![0, 15] : Fin 2 → Nat) a + S256x1.size a ≤ S256x32.size a
  packedbf16_S256x4096_S256x128_0_1920 : (Rect.unit (s := S256x4096) ![0, 1920] S256x128.size inb_S256x4096_S256x128_0_1920).PackedRows (EltTy.packing .bf16)
  inb_S256x4096_S256x128_0_2048 : ∀ a, (![0, 2048] : Fin 2 → Nat) a + S256x128.size a ≤ S256x4096.size a
  inb_S256x32_S256x1_0_16 : ∀ a, (![0, 16] : Fin 2 → Nat) a + S256x1.size a ≤ S256x32.size a
  packedbf16_S256x4096_S256x128_0_2048 : (Rect.unit (s := S256x4096) ![0, 2048] S256x128.size inb_S256x4096_S256x128_0_2048).PackedRows (EltTy.packing .bf16)
  inb_S256x4096_S256x128_0_2176 : ∀ a, (![0, 2176] : Fin 2 → Nat) a + S256x128.size a ≤ S256x4096.size a
  inb_S256x32_S256x1_0_17 : ∀ a, (![0, 17] : Fin 2 → Nat) a + S256x1.size a ≤ S256x32.size a
  packedbf16_S256x4096_S256x128_0_2176 : (Rect.unit (s := S256x4096) ![0, 2176] S256x128.size inb_S256x4096_S256x128_0_2176).PackedRows (EltTy.packing .bf16)
  inb_S256x4096_S256x128_0_2304 : ∀ a, (![0, 2304] : Fin 2 → Nat) a + S256x128.size a ≤ S256x4096.size a
  inb_S256x32_S256x1_0_18 : ∀ a, (![0, 18] : Fin 2 → Nat) a + S256x1.size a ≤ S256x32.size a
  packedbf16_S256x4096_S256x128_0_2304 : (Rect.unit (s := S256x4096) ![0, 2304] S256x128.size inb_S256x4096_S256x128_0_2304).PackedRows (EltTy.packing .bf16)
  inb_S256x4096_S256x128_0_2432 : ∀ a, (![0, 2432] : Fin 2 → Nat) a + S256x128.size a ≤ S256x4096.size a
  inb_S256x32_S256x1_0_19 : ∀ a, (![0, 19] : Fin 2 → Nat) a + S256x1.size a ≤ S256x32.size a
  packedbf16_S256x4096_S256x128_0_2432 : (Rect.unit (s := S256x4096) ![0, 2432] S256x128.size inb_S256x4096_S256x128_0_2432).PackedRows (EltTy.packing .bf16)
  inb_S256x4096_S256x128_0_2560 : ∀ a, (![0, 2560] : Fin 2 → Nat) a + S256x128.size a ≤ S256x4096.size a
  inb_S256x32_S256x1_0_20 : ∀ a, (![0, 20] : Fin 2 → Nat) a + S256x1.size a ≤ S256x32.size a
  packedbf16_S256x4096_S256x128_0_2560 : (Rect.unit (s := S256x4096) ![0, 2560] S256x128.size inb_S256x4096_S256x128_0_2560).PackedRows (EltTy.packing .bf16)
  inb_S256x4096_S256x128_0_2688 : ∀ a, (![0, 2688] : Fin 2 → Nat) a + S256x128.size a ≤ S256x4096.size a
  inb_S256x32_S256x1_0_21 : ∀ a, (![0, 21] : Fin 2 → Nat) a + S256x1.size a ≤ S256x32.size a
  packedbf16_S256x4096_S256x128_0_2688 : (Rect.unit (s := S256x4096) ![0, 2688] S256x128.size inb_S256x4096_S256x128_0_2688).PackedRows (EltTy.packing .bf16)
  inb_S256x4096_S256x128_0_2816 : ∀ a, (![0, 2816] : Fin 2 → Nat) a + S256x128.size a ≤ S256x4096.size a
  inb_S256x32_S256x1_0_22 : ∀ a, (![0, 22] : Fin 2 → Nat) a + S256x1.size a ≤ S256x32.size a
  packedbf16_S256x4096_S256x128_0_2816 : (Rect.unit (s := S256x4096) ![0, 2816] S256x128.size inb_S256x4096_S256x128_0_2816).PackedRows (EltTy.packing .bf16)
  inb_S256x4096_S256x128_0_2944 : ∀ a, (![0, 2944] : Fin 2 → Nat) a + S256x128.size a ≤ S256x4096.size a
  inb_S256x32_S256x1_0_23 : ∀ a, (![0, 23] : Fin 2 → Nat) a + S256x1.size a ≤ S256x32.size a
  packedbf16_S256x4096_S256x128_0_2944 : (Rect.unit (s := S256x4096) ![0, 2944] S256x128.size inb_S256x4096_S256x128_0_2944).PackedRows (EltTy.packing .bf16)
  inb_S256x4096_S256x128_0_3072 : ∀ a, (![0, 3072] : Fin 2 → Nat) a + S256x128.size a ≤ S256x4096.size a
  inb_S256x32_S256x1_0_24 : ∀ a, (![0, 24] : Fin 2 → Nat) a + S256x1.size a ≤ S256x32.size a
  packedbf16_S256x4096_S256x128_0_3072 : (Rect.unit (s := S256x4096) ![0, 3072] S256x128.size inb_S256x4096_S256x128_0_3072).PackedRows (EltTy.packing .bf16)
  inb_S256x4096_S256x128_0_3200 : ∀ a, (![0, 3200] : Fin 2 → Nat) a + S256x128.size a ≤ S256x4096.size a
  inb_S256x32_S256x1_0_25 : ∀ a, (![0, 25] : Fin 2 → Nat) a + S256x1.size a ≤ S256x32.size a
  packedbf16_S256x4096_S256x128_0_3200 : (Rect.unit (s := S256x4096) ![0, 3200] S256x128.size inb_S256x4096_S256x128_0_3200).PackedRows (EltTy.packing .bf16)
  inb_S256x4096_S256x128_0_3328 : ∀ a, (![0, 3328] : Fin 2 → Nat) a + S256x128.size a ≤ S256x4096.size a
  inb_S256x32_S256x1_0_26 : ∀ a, (![0, 26] : Fin 2 → Nat) a + S256x1.size a ≤ S256x32.size a
  packedbf16_S256x4096_S256x128_0_3328 : (Rect.unit (s := S256x4096) ![0, 3328] S256x128.size inb_S256x4096_S256x128_0_3328).PackedRows (EltTy.packing .bf16)
  inb_S256x4096_S256x128_0_3456 : ∀ a, (![0, 3456] : Fin 2 → Nat) a + S256x128.size a ≤ S256x4096.size a
  inb_S256x32_S256x1_0_27 : ∀ a, (![0, 27] : Fin 2 → Nat) a + S256x1.size a ≤ S256x32.size a
  packedbf16_S256x4096_S256x128_0_3456 : (Rect.unit (s := S256x4096) ![0, 3456] S256x128.size inb_S256x4096_S256x128_0_3456).PackedRows (EltTy.packing .bf16)
  inb_S256x4096_S256x128_0_3584 : ∀ a, (![0, 3584] : Fin 2 → Nat) a + S256x128.size a ≤ S256x4096.size a
  inb_S256x32_S256x1_0_28 : ∀ a, (![0, 28] : Fin 2 → Nat) a + S256x1.size a ≤ S256x32.size a
  packedbf16_S256x4096_S256x128_0_3584 : (Rect.unit (s := S256x4096) ![0, 3584] S256x128.size inb_S256x4096_S256x128_0_3584).PackedRows (EltTy.packing .bf16)
  inb_S256x4096_S256x128_0_3712 : ∀ a, (![0, 3712] : Fin 2 → Nat) a + S256x128.size a ≤ S256x4096.size a
  inb_S256x32_S256x1_0_29 : ∀ a, (![0, 29] : Fin 2 → Nat) a + S256x1.size a ≤ S256x32.size a
  packedbf16_S256x4096_S256x128_0_3712 : (Rect.unit (s := S256x4096) ![0, 3712] S256x128.size inb_S256x4096_S256x128_0_3712).PackedRows (EltTy.packing .bf16)
  inb_S256x4096_S256x128_0_3840 : ∀ a, (![0, 3840] : Fin 2 → Nat) a + S256x128.size a ≤ S256x4096.size a
  inb_S256x32_S256x1_0_30 : ∀ a, (![0, 30] : Fin 2 → Nat) a + S256x1.size a ≤ S256x32.size a
  packedbf16_S256x4096_S256x128_0_3840 : (Rect.unit (s := S256x4096) ![0, 3840] S256x128.size inb_S256x4096_S256x128_0_3840).PackedRows (EltTy.packing .bf16)
  inb_S256x4096_S256x128_0_3968 : ∀ a, (![0, 3968] : Fin 2 → Nat) a + S256x128.size a ≤ S256x4096.size a
  inb_S256x32_S256x1_0_31 : ∀ a, (![0, 31] : Fin 2 → Nat) a + S256x1.size a ≤ S256x32.size a
  packedbf16_S256x4096_S256x128_0_3968 : (Rect.unit (s := S256x4096) ![0, 3968] S256x128.size inb_S256x4096_S256x128_0_3968).PackedRows (EltTy.packing .bf16)
  shapeCasts_S4x2048x4096_S8192x4096 : S4x2048x4096.ShapeCasts S8192x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .f32 = 32 ∨ (Rect.block (s := S11008x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S11008x32.size a
  hwx0_1 : ∀ i : grid0.Coords, EltTy.bits .f32 = 32 ∨ (Rect.block (s := S11008x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x11008.size a
  hwx1_3 : ∀ i : grid1.Coords, EltTy.bits .f32 = 32 ∨ (Rect.block (s := S8192x11008) S1024x256.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S352256 : Shape := ⟨1, ![352256]⟩
abbrev S45088768 : Shape := ⟨1, ![45088768]⟩
abbrev S352256x128 : Shape := ⟨2, ![352256, 128]⟩
abbrev S_ : Shape := ⟨0, ![]⟩
abbrev S352256x1 : Shape := ⟨2, ![352256, 1]⟩
abbrev S4x2048x11008 : Shape := ⟨3, ![4, 2048, 11008]⟩
abbrev S1x1x11008 : Shape := ⟨3, ![1, 1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S352256, .f32⟩
  | .hbm, ⟨4, _⟩ => ⟨S45088768, .f32⟩
  | .hbm, ⟨5, _⟩ => ⟨S352256x128, .f32⟩
  | .hbm, ⟨6, _⟩ => ⟨S352256, .f32⟩
  | .hbm, ⟨7, _⟩ => ⟨S_, .f32⟩
  | .hbm, ⟨8, _⟩ => ⟨S352256, .f32⟩
  | .hbm, ⟨9, _⟩ => ⟨S352256, .f32⟩
  | .hbm, ⟨10, _⟩ => ⟨S352256x1, .f32⟩
  | .hbm, ⟨11, _⟩ => ⟨S352256x128, .f32⟩
  | .hbm, ⟨12, _⟩ => ⟨S352256x128, .f32⟩
  | .hbm, ⟨13, _⟩ => ⟨S352256x128, .f32⟩
  | .hbm, ⟨14, _⟩ => ⟨S352256x128, .f32⟩
  | .hbm, ⟨15, _⟩ => ⟨S_, .f32⟩
  | .hbm, ⟨16, _⟩ => ⟨S352256x128, .f32⟩
  | .hbm, ⟨17, _⟩ => ⟨S352256x128, .i1⟩
  | .hbm, ⟨18, _⟩ => ⟨S_, .f32⟩
  | .hbm, ⟨19, _⟩ => ⟨S352256x128, .f32⟩
  | .hbm, ⟨20, _⟩ => ⟨S352256x128, .f32⟩
  | .hbm, ⟨21, _⟩ => ⟨S352256x128, .f32⟩
  | .hbm, ⟨22, _⟩ => ⟨S352256x128, .f32⟩
  | .hbm, ⟨23, _⟩ => ⟨S352256x128, .f32⟩
  | .hbm, ⟨24, _⟩ => ⟨S352256x128, .f32⟩
  | .hbm, ⟨25, _⟩ => ⟨S45088768, .f32⟩
  | .hbm, ⟨26, _⟩ => ⟨S11008x4096, .f32⟩
  | .hbm, ⟨27, _⟩ => ⟨S4x2048x11008, .f32⟩
  | .hbm, ⟨28, _⟩ => ⟨S1x1x11008, .f32⟩
  | .hbm, ⟨29, _⟩ => ⟨S4x2048x11008, .f32⟩
  | .hbm, ⟨30, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S11008x4096_S45088768 : S11008x4096.ShapeCasts S45088768
  shapeCasts_S45088768_S352256x128 : S45088768.ShapeCasts S352256x128
  bcast_S_S352256 : S_.BroadcastsInDim S352256 (![] : Fin 0 → Fin S352256.rank)
  bcast_S352256_S352256x1_0 : S352256.BroadcastsInDim S352256x1 (![0] : Fin 1 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S45088768 : S352256x128.ShapeCasts S45088768
  shapeCasts_S45088768_S11008x4096 : S45088768.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KRun.lean ====
/-
  The idealized kernel's run with its RESULT named. The program is a chain of five segments — a reshape of the scales,
  the binarising region, the reshapes and the format change of the activations and the bias, the matrix-product region,
  and the reshape of the product. The launch theorem carries every unscoped buffer's contents from one segment boundary to
  the next; read at the end against the final state it gives the result buffer at the last boundary's contents, beside
  the four argument arrays as launched.
-/
import proofs.«158924_j65506841199020_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.KRun

end
-- ==== Proof.Spec.lean ====
/-
  The mathematics of a binary, group-scaled linear layer, stated over extended reals with no program in sight.

  A weight matrix `w : [11008, 4096]` is cut, in row-major order, into groups of 128 consecutive entries; group `g`
  has a step `σ_g = max(|scale g|, ε)` with `ε` the positive single-precision number nearest `1e-8`. Every weight is
  replaced by `± σ_g`, the sign being that of the weight and `+` at zero, and the layer is
  `y[a, r, o] = Σ_k x[a, r, k] · q[o, k] + bias[o]`.

  One side computes the sign of the weight itself by comparisons (`unitSign`); the other normalises first, takes the
  sign of `w / σ`, replaces a zero sign by one, and adds and subtracts `tanh (w / σ)` (a straight-through estimator's
  forward value). For a real weight and a real scale the two agree: `σ` is a positive real, so `w / σ` is a real with
  the sign of `w`, `tanh` of it is a real, and adding then subtracting a real changes nothing. Both facts need
  finiteness: at an infinite weight the quotient's sign survives but `(h + t) - t` need not.
-/
import Idealize.ShloMosaic.PureOps.Ideal
import Idealize.ShloMosaic.PureOps.Ideal.Laws
import Idealize.ShloMosaic.Lib.ValueIdx

noncomputable section

namespace Cert.BinLinear

open Idealize.ShloMosaic Idealize.ShloMosaic.ValueIdx

/-- The smallest step: the single-precision number nearest `1e-8`. -/
def eps : EReal := Ideal.ofBits .f32 0x322BCC77#32

/-- A group's step: `max(|s|, ε)`. -/
def stepScale (s : EReal) : EReal := max (max s (-s)) eps

/-- The sign of a weight by comparisons: `-1` below zero, else `1` — through "one with the sign of `w`" where
    `|w| > 0`, `w` itself at zero, and zero replaced by one. -/
def unitSign (w : EReal) : EReal :=
  Scalar.select
    (Ideal.cmp .oeq
      (Scalar.select (Ideal.cmp .ogt (max w (-w)) (Ideal.ofBits .f32 0x00000000#32))
        (Scalar.select (Ideal.cmp .olt w (Ideal.ofBits .f32 0x00000000#32)) (Ideal.ofBits .f32 0xBF800000#32) (Ideal.ofBits .f32 0x3F800000#32))
        w)
      (Ideal.ofBits .f32 0x00000000#32))
    (Ideal.ofBits .f32 0x3F800000#32)
    (Scalar.select (Ideal.cmp .ogt (max w (-w)) (Ideal.ofBits .f32 0x00000000#32))
      (Scalar.select (Ideal.cmp .olt w (Ideal.ofBits .f32 0x00000000#32)) (Ideal.ofBits .f32 0xBF800000#32) (Ideal.ofBits .f32 0x3F800000#32))
      w)

/-- A binarised weight: the sign times the group's step. -/
def binW (w s : EReal) : EReal := unitSign w * stepScale s

/-- The same through the normalised weight: the sign of `w / σ` with zero replaced by one, plus and minus
    `tanh (w / σ)`, times `σ`. -/
def steW (w s : EReal) : EReal :=
  (Scalar.select (Ideal.cmp .oeq (Ideal.sign (Ideal.div w (stepScale s))) (Ideal.ofBits .f32 0x00000000#32))
      (Ideal.ofBits .f32 0x3F800000#32) (Ideal.sign (Ideal.div w (stepScale s)))
    + Ideal.tanh (Ideal.div w (stepScale s)) - Ideal.tanh (Ideal.div w (stepScale s))) * stepScale s

/-! ## The literals -/

theorem word_one : Ideal.ofBits .f32 0x3F800000#32 = 1 := by
  simp [Ideal.ofBits, Ideal.ieee]
  rw [← EReal.coe_mul]; norm_num

theorem word_negOne : Ideal.ofBits .f32 0xBF800000#32 = -1 := by
  simp [Ideal.ofBits, Ideal.ieee]
  rw [← EReal.coe_mul]; norm_num

/-- `ε` is a positive real. -/
theorem eps_pos : ∃ e : ℝ, 0 < e ∧ eps = (e : EReal) := by
  refine ⟨_, ?_, by unfold eps; simp [Ideal.ofBits, Ideal.ieee]; rfl⟩
  positivity

/-- The step of a real scale is a positive real. -/
theorem stepScale_coe (s : ℝ) : ∃ σ : ℝ, 0 < σ ∧ stepScale (s : EReal) = (σ : EReal) := by
  obtain ⟨e, he, hE⟩ := eps_pos
  refine ⟨max (max s (-s)) e, lt_max_of_lt_right he, ?_⟩
  have cm : ∀ a b : ℝ, max (a : EReal) (b : EReal) = ((max a b : ℝ) : EReal) :=
    fun a b => (EReal.coe_strictMono.monotone.map_max).symm
  unfold stepScale
  rw [hE, ← EReal.coe_neg, cm, cm]

theorem select_ofBool {α : Type} (P : Prop) [Decidable P] (a b : α) :
    Scalar.select (BitVec.ofBool (decide P)) a b = if P then a else b := by
  by_cases h : P <;> simp [Scalar.select, h]

/-- On a real weight the comparisons give `-1` below zero and `1` otherwise. -/
theorem unitSign_coe (w : ℝ) : unitSign (w : EReal) = if w < 0 then -1 else 1 := by
  unfold unitSign Ideal.cmp
  simp only [select_ofBool, Ideal.ofBits_zero_f32, word_one, word_negOne]
  rcases lt_trichotomy w 0 with h | h | h
  · have h1 : ((w : ℝ) : EReal) < 0 := by exact_mod_cast h
    have h2 : (0 : EReal) < max (w : EReal) (-(w : EReal)) := by
      refine lt_max_of_lt_right ?_
      rw [← EReal.coe_neg]; exact_mod_cast (neg_pos.mpr h)
    simp [h, h1, h2]
  · subst h
    simp
  · have h1 : ¬ ((w : ℝ) : EReal) < 0 := by
      have : (0 : EReal) ≤ (w : EReal) := by exact_mod_cast h.le
      exact not_lt.mpr this
    have h2 : (0 : EReal) < max (w : EReal) (-(w : EReal)) := by
      refine lt_max_of_lt_left ?_
      exact_mod_cast h
    simp [not_lt.mpr h.le, h1, h2]

/-- THE LAW: for a real weight and a real scale the normalised form is the comparison form. -/
theorem steW_coe (w s : ℝ) : steW (w : EReal) (s : EReal) = binW (w : EReal) (s : EReal) := by
  obtain ⟨σ, hσ, hS⟩ := stepScale_coe s
  unfold steW binW
  rw [unitSign_coe, hS, Ideal.div_coe hσ.ne', ← EReal.coe_mul, Ideal.tanh_coe, Ideal.sign_coe]
  unfold Ideal.cmp
  simp only [select_ofBool, Ideal.ofBits_zero_f32, word_one]
  have hq : w * (1 / σ) = w / σ := by ring
  rw [hq]
  rcases lt_trichotomy w 0 with h | h | h
  · have hd : w / σ < 0 := div_neg_of_neg_of_pos h hσ
    rw [sign_neg hd, if_pos h]
    have : ¬ (((-1 : SignType) : ℝ) : EReal) = 0 := by simp
    rw [if_neg this]
    have e1 : ((((-1 : SignType) : ℝ) : EReal)) = -1 := by simp
    rw [e1]
    congr 1
    rw [show (-1 : EReal) = ((-1 : ℝ) : EReal) by simp, ← EReal.coe_add, ← EReal.coe_sub]
    congr 1; ring
  · subst h
    rw [zero_div, sign_zero, if_neg (lt_irrefl _)]
    have : (((0 : SignType) : ℝ) : EReal) = 0 := by simp
    rw [if_pos this]
    congr 1
    rw [show (1 : EReal) = ((1 : ℝ) : EReal) by simp, ← EReal.coe_add, ← EReal.coe_sub]
    congr 1; ring
  · have hd : 0 < w / σ := div_pos h hσ
    rw [sign_pos hd, if_neg (not_lt.mpr h.le)]
    have : ¬ (((1 : SignType) : ℝ) : EReal) = 0 := by simp
    rw [if_neg this]
    have e1 : ((((1 : SignType) : ℝ) : EReal)) = 1 := by simp
    rw [e1]
    congr 1
    rw [show (1 : EReal) = ((1 : ℝ) : EReal) by simp, ← EReal.coe_add, ← EReal.coe_sub]
    congr 1; ring

/-! ## The layer, entry by entry -/

/-- The group of entry `(o, k)` of the weight matrix, in row-major order: `(o · 4096 + k) / 128`. -/
def grp (o : Fin 11008) (k : Fin 4096) : Fin 352256 :=
  ⟨(o.val * 4096 + k.val) / 128, by have := o.isLt; have := k.isLt; omega⟩

/-- The binarised weight matrix, entry by entry. -/
def qW (w : (⟨2, ![11008, 4096]⟩ : Shape).Idx → EReal) (s : (⟨1, ![352256]⟩ : Shape).Idx → EReal)
    (o : Fin 11008) (k : Fin 4096) : EReal :=
  binW (w (ix2 o k)) (s (ix1 (grp o k)))

/-- The layer's output at `(a, r, o)`: the row of `x` against row `o` of the binarised weights, plus the bias. -/
def layerAt (x : (⟨3, ![4, 2048, 4096]⟩ : Shape).Idx → EReal) (w : (⟨2, ![11008, 4096]⟩ : Shape).Idx → EReal)
    (b : (⟨1, ![11008]⟩ : Shape).Idx → EReal) (s : (⟨1, ![352256]⟩ : Shape).Idx → EReal)
    (a : Fin 4) (r : Fin 2048) (o : Fin 11008) : EReal :=
  (∑ k : Fin 4096, x (ix3 a r k) * qW w s o k) + b (ix1 o)

/-- The layer's output array. -/
def layer (x : (⟨3, ![4, 2048, 4096]⟩ : Shape).Idx → EReal) (w : (⟨2, ![11008, 4096]⟩ : Shape).Idx → EReal)
    (b : (⟨1, ![11008]⟩ : Shape).Idx → EReal) (s : (⟨1, ![352256]⟩ : Shape).Idx → EReal) :
    (⟨3, ![4, 2048, 11008]⟩ : Shape).Idx → EReal :=
  fun i => layerAt x w b s (i 0) (i 1) (i 2)

end Cert.BinLinear

end
-- ==== Proof.QuantBlock.lean ====
/-
  What the binarising body leaves in its output block. The body walks the 32 groups of a 256 × 4096 block of weights:
  for group `g` it loads the 256 × 128 slab of columns `128 g … 128 g + 127` and column `g` of the 256 × 32 block of
  scales, and stores sign · step into the same slab of the output. The 32 stores tile the block, each with the same
  function of what it loaded, so the block ends as ONE function of the two input blocks: entry `(p, q)` is the
  binarised weight `(p, q)` under the step of scale `(p, q / 128)`.
-/
import proofs.«158924_j65506841199020_2_alg».proof.Proof.Gen.KernelIdeal.Frame
import proofs.«158924_j65506841199020_2_alg».proof.Proof.Spec
import Idealize.ShloMosaic.Lib.Pipeline.Value
import Idealize.ShloMosaic.Lib.ValueIdx

set_option maxRecDepth 16384

noncomputable section

namespace Cert.KernelIdeal.Quant

open Cert.KernelIdeal Cert.KernelIdeal.Gen Cert.BinLinear
open Idealize.ShloMosaic Idealize.ShloMosaic.ValueIdx

/-- The column of scales entry `(p, q)` of a block of weights falls under. -/
def scaleCol (q : Fin 4096) : Fin 32 := ⟨q.val / 128, by have := q.isLt; omega⟩

/-- The output block as one function of the weight block and the scale block. -/
def blockQ (x0 : Vec Ideal S256x4096 .f32) (x1 : Vec Ideal S256x32 .f32) : Vec Ideal S256x4096 .bf16 :=
  fun j => binW (x0 j) (x1 (ix2 (j 0) (scaleCol (j 1))))

/-- One slab's payload at `(p, l)`: the sign of the loaded weight times the step of the loaded scale of row `p`. -/
theorem slab_at (v0 : Vec Ideal S256x128 .f32) (v15 : Vec Ideal S256x1 .f32) (p : Fin 256) (l : Fin 128) :
    k0_pay2 (F := Ideal) v0 v15 (ix2 p l) = binW (v0 (ix2 p l)) (v15 (ix2 p 0)) := by
  unfold k0_pay2 binW
  refine congrArg₂ (fun a b : EReal => a * b) rfl ?_
  refine (broadcastTo_apply _ broadcasts_S256x1_S256x128 (ix2 p l) (ix2 p (0 : Fin 1)) (fun a => ?_)).trans ?_
  · match a with
    | ⟨0, _⟩ => show p.val = if (256 : Nat) = 1 then 0 else p.val; rw [if_neg (by decide)]
    | ⟨1, _⟩ => show 0 = if (1 : Nat) = 1 then 0 else l.val; rw [if_pos rfl]
  · rw [shapeCast_self]
    rfl

/-- The body's 32 stores, each spelt as the first slab's payload of its own loads: the printed body is cut into
    windows by count, which only moves where a slab's operations are written down. -/
theorem out_pieces {F : FTy → Type} [FloatOps F] (x0 : Vec F S256x4096 .f32) (x1 : Vec F S256x32 .f32) :
    out0_2 x0 x1 = View.canon [⟨r0_62, k0_pay2 (View.ld x0 r0_62) (View.ld x1 r0_63)⟩,
    ⟨r0_60, k0_pay2 (View.ld x0 r0_60) (View.ld x1 r0_61)⟩,
    ⟨r0_58, k0_pay2 (View.ld x0 r0_58) (View.ld x1 r0_59)⟩,
    ⟨r0_56, k0_pay2 (View.ld x0 r0_56) (View.ld x1 r0_57)⟩,
    ⟨r0_54, k0_pay2 (View.ld x0 r0_54) (View.ld x1 r0_55)⟩,
    ⟨r0_52, k0_pay2 (View.ld x0 r0_52) (View.ld x1 r0_53)⟩,
    ⟨r0_50, k0_pay2 (View.ld x0 r0_50) (View.ld x1 r0_51)⟩,
    ⟨r0_48, k0_pay2 (View.ld x0 r0_48) (View.ld x1 r0_49)⟩,
    ⟨r0_46, k0_pay2 (View.ld x0 r0_46) (View.ld x1 r0_47)⟩,
    ⟨r0_44, k0_pay2 (View.ld x0 r0_44) (View.ld x1 r0_45)⟩,
    ⟨r0_42, k0_pay2 (View.ld x0 r0_42) (View.ld x1 r0_43)⟩,
    ⟨r0_40, k0_pay2 (View.ld x0 r0_40) (View.ld x1 r0_41)⟩,
    ⟨r0_38, k0_pay2 (View.ld x0 r0_38) (View.ld x1 r0_39)⟩,
    ⟨r0_36, k0_pay2 (View.ld x0 r0_36) (View.ld x1 r0_37)⟩,
    ⟨r0_34, k0_pay2 (View.ld x0 r0_34) (View.ld x1 r0_35)⟩,
    ⟨r0_32, k0_pay2 (View.ld x0 r0_32) (View.ld x1 r0_33)⟩,
    ⟨r0_30, k0_pay2 (View.ld x0 r0_30) (View.ld x1 r0_31)⟩,
    ⟨r0_28, k0_pay2 (View.ld x0 r0_28) (View.ld x1 r0_29)⟩,
    ⟨r0_26, k0_pay2 (View.ld x0 r0_26) (View.ld x1 r0_27)⟩,
    ⟨r0_24, k0_pay2 (View.ld x0 r0_24) (View.ld x1 r0_25)⟩,
    ⟨r0_22, k0_pay2 (View.ld x0 r0_22) (View.ld x1 r0_23)⟩,
    ⟨r0_20, k0_pay2 (View.ld x0 r0_20) (View.ld x1 r0_21)⟩,
    ⟨r0_18, k0_pay2 (View.ld x0 r0_18) (View.ld x1 r0_19)⟩,
    ⟨r0_16, k0_pay2 (View.ld x0 r0_16) (View.ld x1 r0_17)⟩,
    ⟨r0_14, k0_pay2 (View.ld x0 r0_14) (View.ld x1 r0_15)⟩,
    ⟨r0_12, k0_pay2 (View.ld x0 r0_12) (View.ld x1 r0_13)⟩,
    ⟨r0_10, k0_pay2 (View.ld x0 r0_10) (View.ld x1 r0_11)⟩,
    ⟨r0_8, k0_pay2 (View.ld x0 r0_8) (View.ld x1 r0_9)⟩,
    ⟨r0_6, k0_pay2 (View.ld x0 r0_6) (View.ld x1 r0_7)⟩,
    ⟨r0_4, k0_pay2 (View.ld x0 r0_4) (View.ld x1 r0_5)⟩,
    ⟨r0_2, k0_pay2 (View.ld x0 r0_2) (View.ld x1 r0_3)⟩,
    ⟨r0_0, k0_pay2 (View.ld x0 r0_0) (View.ld x1 r0_1)⟩] := rfl

/-- A slab's payload is the block function on the slab: group `g` reads columns `128 g + l` of the weights and column
    `g` of the scales, and `(128 g + l) / 128 = g`. -/
theorem slab_piece (x0 : Vec Ideal S256x4096 .f32) (x1 : Vec Ideal S256x32 .f32) (o g : Nat) (ho : o = 128 * g)
    (inb0 : ∀ a, (![0, o] : Fin 2 → Nat) a + S256x128.size a ≤ S256x4096.size a)
    (inb1 : ∀ a, (![0, g] : Fin 2 → Nat) a + S256x1.size a ≤ S256x32.size a)
    (y : (Rect.unit (s := S256x4096) ![0, o] S256x128.size inb0).shape.Idx) :
    k0_pay2 (F := Ideal) (View.ld x0 (Rect.unit (s := S256x4096) ![0, o] S256x128.size inb0))
        (View.ld x1 (Rect.unit (s := S256x32) ![0, g] S256x1.size inb1)) y
      = blockQ x0 x1 ((Rect.unit (s := S256x4096) ![0, o] S256x128.size inb0).emb y) := by
  obtain ⟨p, l, rfl⟩ : ∃ (p : Fin 256) (l : Fin 128), y = ix2 p l := ⟨y 0, y 1, eq_ix2 y⟩
  refine (slab_at _ _ p l).trans ?_
  unfold blockQ
  refine congrArg₂ (fun a b : EReal => binW a b) rfl (congrArg x1 ?_)
  funext a; apply Fin.ext
  have hl := l.isLt
  match a with
  | ⟨0, _⟩ => rfl
  | ⟨1, _⟩ =>
    show g + 1 * 0 = (o + 1 * l.val) / 128
    omega

theorem pieces_nil {Val : EltTy → Type} {S : Shape} {e : EltTy} (G : S.Idx → Val e) :
    ∀ q ∈ ([] : List (View.Piece Val S e)), ∀ x : q.1.shape.Idx, q.2 x = G (q.1.emb x) := by
  intro q hq; cases hq

theorem pieces_cons {Val : EltTy → Type} {S : Shape} {e : EltTy} (G : S.Idx → Val e) (p : View.Piece Val S e)
    (L : List (View.Piece Val S e)) (hp : ∀ x : p.1.shape.Idx, p.2 x = G (p.1.emb x))
    (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | h
  · exact hp
  · exact hL q h

/-- THE BLOCK: the 32 slabs tile it and each is the block function on its slab. -/
theorem block_eq (x0 : Vec Ideal S256x4096 .f32) (x1 : Vec Ideal S256x32 .f32) :
    out0_2 (F := Ideal) x0 x1 = blockQ x0 x1 := by
  rw [out_pieces]
  funext y
  exact View.canon_apply_of_pieces (blockQ x0 x1) _
    (pieces_cons _ _ _ (fun y => slab_piece x0 x1 3968 31 rfl _ _ y)
    (pieces_cons _ _ _ (fun y => slab_piece x0 x1 3840 30 rfl _ _ y)
    (pieces_cons _ _ _ (fun y => slab_piece x0 x1 3712 29 rfl _ _ y)
    (pieces_cons _ _ _ (fun y => slab_piece x0 x1 3584 28 rfl _ _ y)
    (pieces_cons _ _ _ (fun y => slab_piece x0 x1 3456 27 rfl _ _ y)
    (pieces_cons _ _ _ (fun y => slab_piece x0 x1 3328 26 rfl _ _ y)
    (pieces_cons _ _ _ (fun y => slab_piece x0 x1 3200 25 rfl _ _ y)
    (pieces_cons _ _ _ (fun y => slab_piece x0 x1 3072 24 rfl _ _ y)
    (pieces_cons _ _ _ (fun y => slab_piece x0 x1 2944 23 rfl _ _ y)
    (pieces_cons _ _ _ (fun y => slab_piece x0 x1 2816 22 rfl _ _ y)
    (pieces_cons _ _ _ (fun y => slab_piece x0 x1 2688 21 rfl _ _ y)
    (pieces_cons _ _ _ (fun y => slab_piece x0 x1 2560 20 rfl _ _ y)
    (pieces_cons _ _ _ (fun y => slab_piece x0 x1 2432 19 rfl _ _ y)
    (pieces_cons _ _ _ (fun y => slab_piece x0 x1 2304 18 rfl _ _ y)
    (pieces_cons _ _ _ (fun y => slab_piece x0 x1 2176 17 rfl _ _ y)
    (pieces_cons _ _ _ (fun y => slab_piece x0 x1 2048 16 rfl _ _ y)
    (pieces_cons _ _ _ (fun y => slab_piece x0 x1 1920 15 rfl _ _ y)
    (pieces_cons _ _ _ (fun y => slab_piece x0 x1 1792 14 rfl _ _ y)
    (pieces_cons _ _ _ (fun y => slab_piece x0 x1 1664 13 rfl _ _ y)
    (pieces_cons _ _ _ (fun y => slab_piece x0 x1 1536 12 rfl _ _ y)
    (pieces_cons _ _ _ (fun y => slab_piece x0 x1 1408 11 rfl _ _ y)
    (pieces_cons _ _ _ (fun y => slab_piece x0 x1 1280 10 rfl _ _ y)
    (pieces_cons _ _ _ (fun y => slab_piece x0 x1 1152 9 rfl _ _ y)
    (pieces_cons _ _ _ (fun y => slab_piece x0 x1 1024 8 rfl _ _ y)
    (pieces_cons _ _ _ (fun y => slab_piece x0 x1 896 7 rfl _ _ y)
    (pieces_cons _ _ _ (fun y => slab_piece x0 x1 768 6 rfl _ _ y)
    (pieces_cons _ _ _ (fun y => slab_piece x0 x1 640 5 rfl _ _ y)
    (pieces_cons _ _ _ (fun y => slab_piece x0 x1 512 4 rfl _ _ y)
    (pieces_cons _ _ _ (fun y => slab_piece x0 x1 384 3 rfl _ _ y)
    (pieces_cons _ _ _ (fun y => slab_piece x0 x1 256 2 rfl _ _ y)
    (pieces_cons _ _ _ (fun y => slab_piece x0 x1 128 1 rfl _ _ y)
    (pieces_cons _ _ _ (fun y => slab_piece x0 x1 0 0 rfl _ _ y)
    (pieces_nil _)))))))))))))))))))))))))))))))))
    y (cover0_2 _ _ _ _ _ _ _ _ _ _ _ _ _ _ _ _ _ _ _ _ _ _ _ _ _ _ _ _ _ _ _ _ y)

end Cert.KernelIdeal.Quant

end
-- ==== Proof.QuantArr.lean ====
/-
  The binarised weight matrix after the first region. The grid has 43 points; point `t` works on rows
  `256 t … 256 t + 255` of the weights (all 4096 columns) and the same rows of the 11008 × 32 matrix of scales, and
  writes back the same rows of the output. What it writes back is the block function of the two blocks, which is the
  restriction to those rows of ONE function of the two whole arrays: entry `(o, k)` is the binarised weight `(o, k)`
  under the step of scale `(o, k / 128)`. The 43 blocks tile the rows, so the array ends as that function. All of this
  holds for whatever contents the region is entered with.
-/
import proofs.«158924_j65506841199020_2_alg».proof.Proof.QuantBlock

set_option maxRecDepth 16384

noncomputable section

namespace Cert.KernelIdeal.Quant

open Cert.KernelIdeal Cert.KernelIdeal.Gen Cert.BinLinear
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The binarised matrix as one function of the weights and the 11008 × 32 matrix of scales. -/
def arrQ (w : S11008x4096.Idx → EReal) (s2 : S11008x32.Idx → EReal) : S11008x4096.Idx → EReal :=
  fun i => binW (w i) (s2 (ix2 (i 0) (scaleCol (i 1))))

/-- The three windows move together: block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the binarised matrix. -/
theorem flushed_eq (c : Dev nD) (t : Fin cfg0.N) :
    (dat0 V c).flushed 2 t = ((cfg0.win 2).blk t).view.read (Elt Ideal) (arrQ (V c main_arg1) (V c main_v0)) := by
  show (cfg0.win 2).cut (grid0.coords t) ((dat0 V c).after 2 t) = _
  rw [after0_2, block_eq (iblk0 V c 0 t) (iblk0 V c 1 t)]
  obtain ⟨e0, e1, e2, e3, e4, e5⟩ := idx_facts t
  funext j
  show binW (V c main_arg1 (((cfg0.win 0).blk t).view.emb j))
        (V c main_v0 (((cfg0.win 1).blk t).view.emb (ix2 (j 0) (scaleCol (j 1)))))
      = binW (V c main_arg1 (((cfg0.win 2).blk t).view.emb j))
        (V c main_v0 (ix2 ((((cfg0.win 2).blk t).view.emb j) 0) (scaleCol ((((cfg0.win 2).blk t).view.emb j) 1))))
  have hj0 : (j 0).val < 256 := (j 0).isLt
  have hj1 : (j 1).val < 4096 := (j 1).isLt
  have h0 : ((cfg0.win 0).blk t).view.emb j = ((cfg0.win 2).blk t).view.emb j := by
    funext a; apply Fin.ext
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 4096 + 1 * (j 1).val = win0_2.index t (1 : Fin 2) * 4096 + 1 * (j 1).val
      omega
  have h1 : ((cfg0.win 1).blk t).view.emb (ix2 (j 0) (scaleCol (j 1)))
      = ix2 ((((cfg0.win 2).blk t).view.emb j) 0) (scaleCol ((((cfg0.win 2).blk t).view.emb j) 1)) := by
    funext a; apply Fin.ext
    match a with
    | ⟨0, _⟩ =>
      show win0_1.index t (0 : Fin 2) * 256 + 1 * (j 0).val = win0_2.index t (0 : Fin 2) * 256 + 1 * (j 0).val
      omega
    | ⟨1, _⟩ =>
      show win0_1.index t (1 : Fin 2) * 32 + 1 * ((j 1).val / 128) = (win0_2.index t (1 : Fin 2) * 4096 + 1 * (j 1).val) / 128
      omega
  rw [h0, h1]
  rfl

/-- An index is in point `t`'s block iff each coordinate is in the block's range on its axis. -/
theorem mem_blk (t : Fin cfg0.N) (i : S11008x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v1).slice (win0_2.rect t)).set ↔ _
  rw [View.set_slice_whole, Rect.mem_set_unit]
  exact Iff.rfl

/-- Every entry lies in the block of the point of its row: `t = o / 256`. -/
theorem cover (i : S11008x4096.Idx) :
    ∃ t : Fin cfg0.N, (cfg0.win 2).flush t = true ∧ i ∈ ((cfg0.win 2).blk t).view.set := by
  have hi0 : (i 0).val < 11008 := (i 0).isLt
  have hi1 : (i 1).val < 4096 := (i 1).isLt
  have hlt : (i 0).val / 256 < 43 := by omega
  obtain ⟨e0, e1, e2, e3, e4, e5⟩ := idx_facts (⟨(i 0).val / 256, hlt⟩ : Fin cfg0.N)
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val
      ∧ (i 0).val < win0_2.index ⟨(i 0).val / 256, hlt⟩ (0 : Fin 2) * 256 + 256
    rw [e4]
    show (i 0).val / 256 * 256 ≤ (i 0).val ∧ (i 0).val < (i 0).val / 256 * 256 + 256
    omega
  | ⟨1, _⟩ =>
    show win0_2.index ⟨(i 0).val / 256, hlt⟩ (1 : Fin 2) * 4096 ≤ (i 1).val
      ∧ (i 1).val < win0_2.index ⟨(i 0).val / 256, hlt⟩ (1 : Fin 2) * 4096 + 4096
    rw [e5]
    omega

/-- THE ARRAY after the region: the binarised matrix of the weights and scales the region was entered with. -/
theorem arr_eq (c : Dev nD) : (dat0 V c).arrAt 2 cfg0.N = arrQ (V c main_arg1) (V c main_v0) :=
  (dat0 V c).arrAt_eq_of_cover 2 (arrQ (V c main_arg1) (V c main_v0)) (fun t _ => flushed_eq V c t) cover

end Cert.KernelIdeal.Quant

end
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.MatBlock.lean ====
/-
  What the matrix-product body leaves in its output block. The body loads a 1024 × 4096 block of activations, a
  256 × 4096 block of binarised weights and a 1 × 256 block of bias, whole; contracts the second axes of the two
  matrices into a zero accumulator; adds the bias row to every row; and stores the 1024 × 256 result whole. At the
  ideal values entry `(p, q)` of the block is `Σ_k x(p, k) · w(q, k) + bias(0, q)`, the formats playing no part.
-/
import proofs.«158924_j65506841199020_2_alg».proof.Proof.Gen.KernelIdeal.Frame
import proofs.«158924_j65506841199020_2_alg».proof.Proof.LibDotRowRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mat

open Cert.KernelIdeal Cert.KernelIdeal.Gen
open Idealize.ShloMosaic Idealize.ShloMosaic.ValueIdx

theorem zeros2 : (![0, 0] : Fin 2 → Nat) = fun _ => 0 := funext fun a => by fin_cases a <;> rfl

/-- The output block as one function of the three input blocks. -/
def blockY (x0 : Vec Ideal S1024x4096 .bf16) (x1 : Vec Ideal S256x4096 .bf16) (x2 : Vec Ideal S1x256 .f32) :
    Vec Ideal S1024x256 .f32 :=
  fun j => (∑ k : Fin 4096, x0 (ix2 (j 0) k) * x1 (ix2 (j 1) k)) + x2 (ix2 (0 : Fin 1) (j 1))

/-- The payload at `(p, q)`: row `p` of the activations against row `q` of the weights, plus the bias at `q`. -/
theorem prod_at (v0 : FVec Ideal S1024x4096 .bf16) (v2 : FVec Ideal S256x4096 .bf16) (v5 : FVec Ideal S1x256 .f32)
    (p : Fin 1024) (q : Fin 256) :
    k1_pay1 (F := Ideal) v0 v2 v5 (ix2 p q)
      = (∑ k : Fin 4096, v0 (ix2 p k) * v2 (ix2 q k)) + v5 (ix2 (0 : Fin 1) q) := by
  unfold k1_pay1
  rw [shapeCast_self, shapeCast_self, shapeCast_self]
  refine congrArg₂ (fun a b : EReal => a + b) ?_ ?_
  · exact (Ideal.matmul_constant_zero_apply (φ₁ := .bf16) (φ₂ := .bf16) dot_S1024x4096_S256x4096_S1024x256_1_1_0_0_n_n none v0 v2 (ix2 p q)).trans
      (Cert.RowRowDot.sum_eq dot_S1024x4096_S256x4096_S1024x256_1_1_0_0_n_n rfl rfl rfl rfl rfl rfl rfl rfl v0 v2 p q)
  · exact broadcastTo_1b_ab_apply v5 broadcasts_S1x256_S1024x256 p q

/-- THE BLOCK: the body's one store, through the whole buffer, of the payload of its three whole loads. -/
theorem block_eq (x0 : Vec Ideal S1024x4096 .bf16) (x1 : Vec Ideal S256x4096 .bf16) (x2 : Vec Ideal S1x256 .f32) :
    out1_3 (F := Ideal) x0 x1 x2 = blockY x0 x1 x2 := by
  unfold out1_3
  rw [View.canon_unit_zero zeros2]
  simp only [View.ld_unit_zero (S := S1024x4096) zeros2, View.ld_unit_zero (S := S256x4096) zeros2,
    View.ld_unit_zero (S := S1x256) zeros2]
  funext j
  obtain ⟨p, q, rfl⟩ : ∃ (p : Fin 1024) (q : Fin 256), j = ix2 p q := ⟨j 0, j 1, eq_ix2 j⟩
  exact prod_at x0 x1 x2 p q

end Cert.KernelIdeal.Mat

end
-- ==== Proof.MatArr.lean ====
/-
  The product array after the second region. The grid is 8 × 43; point `t` is `(t / 43, t % 43) = (bi, bj)`. It
  works on rows `1024 bi …` of the 8192 × 4096 activations, rows `256 bj …` of the 11008 × 4096 binarised weights,
  columns `256 bj …` of the 1 × 11008 bias, and writes back block `(bi, bj)` of the 8192 × 11008 output. What it
  writes back is the block function of the three blocks, the restriction to that block of ONE function of the three
  whole arrays: entry `(r, o)` is `Σ_k x(r, k) · w(o, k) + bias(0, o)`. The 344 blocks tile the output. All of this holds
  for whatever contents the region is entered with.
-/
import proofs.«158924_j65506841199020_2_alg».proof.Proof.MatBlock

set_option maxRecDepth 16384

noncomputable section

namespace Cert.KernelIdeal.Mat

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The product array as one function of the activations, the binarised weights and the bias row. -/
def arrY (x : S8192x4096.Idx → EReal) (w : S11008x4096.Idx → EReal) (b : S1x11008.Idx → EReal) : S8192x11008.Idx → EReal :=
  fun i => (∑ k : Fin 4096, x (ix2 (i 0) k) * w (ix2 (i 1) k)) + b (ix2 (0 : Fin 1) (i 1))

/-- A row against a row plus a bias entry, the three arrays read where the index functions say. -/
def rowDot (x : S8192x4096.Idx → EReal) (w : S11008x4096.Idx → EReal) (b : S1x11008.Idx → EReal)
    (ix : Fin 4096 → S8192x4096.Idx) (iw : Fin 4096 → S11008x4096.Idx) (ib : S1x11008.Idx) : EReal :=
  (∑ k : Fin 4096, x (ix k) * w (iw k)) + b ib

/-- Where the four windows are at point `t`. -/
theorem idx_facts : ∀ t : Fin cfg1.N, win1_0.index t (0 : Fin 2) = t.val / 43 ∧ win1_0.index t (1 : Fin 2) = 0
    ∧ win1_1.index t (0 : Fin 2) = t.val % 43 ∧ win1_1.index t (1 : Fin 2) = 0
    ∧ win1_2.index t (0 : Fin 2) = 0 ∧ win1_2.index t (1 : Fin 2) = t.val % 43
    ∧ win1_3.index t (0 : Fin 2) = t.val / 43 ∧ win1_3.index t (1 : Fin 2) = t.val % 43 :=
  (by decide +kernel : ∀ t : Fin grid1.N, _)

/-- What point `t` writes back is block `t` of the product array. -/
theorem flushed_eq (c : Dev nD) (t : Fin cfg1.N) :
    (dat1 V c).flushed 3 t
      = ((cfg1.win 3).blk t).view.read (Elt Ideal) (arrY (V c main_v3) (V c main_v1) (V c main_v4)) := by
  show (cfg1.win 3).cut (grid1.coords t) ((dat1 V c).after 3 t) = _
  rw [after1_3, block_eq (iblk1 V c 0 t) (iblk1 V c 1 t) (iblk1 V c 2 t)]
  obtain ⟨e0, e1, e2, e3, e4, e5, e6, e7⟩ := idx_facts t
  funext j
  show rowDot (V c main_v3) (V c main_v1) (V c main_v4)
        (fun k => ((cfg1.win 0).blk t).view.emb (ix2 (j 0) k))
        (fun k => ((cfg1.win 1).blk t).view.emb (ix2 (j 1) k))
        (((cfg1.win 2).blk t).view.emb (ix2 (0 : Fin 1) (j 1)))
      = rowDot (V c main_v3) (V c main_v1) (V c main_v4)
        (fun k => ix2 ((((cfg1.win 3).blk t).view.emb j) 0) k)
        (fun k => ix2 ((((cfg1.win 3).blk t).view.emb j) 1) k)
        (ix2 (0 : Fin 1) ((((cfg1.win 3).blk t).view.emb j) 1))
  have hj0 : (j 0).val < 1024 := (j 0).isLt
  have hj1 : (j 1).val < 256 := (j 1).isLt
  have hx : ∀ k : Fin 4096, ((cfg1.win 0).blk t).view.emb (ix2 (j 0) k) = ix2 ((((cfg1.win 3).blk t).view.emb j) 0) k := by
    intro k
    funext a; apply Fin.ext
    match a with
    | ⟨0, _⟩ =>
      show win1_0.index t (0 : Fin 2) * 1024 + 1 * (j 0).val = win1_3.index t (0 : Fin 2) * 1024 + 1 * (j 0).val
      omega
    | ⟨1, _⟩ =>
      show win1_0.index t (1 : Fin 2) * 4096 + 1 * k.val = k.val
      omega
  have hw : ∀ k : Fin 4096, ((cfg1.win 1).blk t).view.emb (ix2 (j 1) k) = ix2 ((((cfg1.win 3).blk t).view.emb j) 1) k := by
    intro k
    funext a; apply Fin.ext
    match a with
    | ⟨0, _⟩ =>
      show win1_1.index t (0 : Fin 2) * 256 + 1 * (j 1).val = win1_3.index t (1 : Fin 2) * 256 + 1 * (j 1).val
      omega
    | ⟨1, _⟩ =>
      show win1_1.index t (1 : Fin 2) * 4096 + 1 * k.val = k.val
      omega
  have hb : ((cfg1.win 2).blk t).view.emb (ix2 (0 : Fin 1) (j 1)) = ix2 (0 : Fin 1) ((((cfg1.win 3).blk t).view.emb j) 1) := by
    funext a; apply Fin.ext
    match a with
    | ⟨0, _⟩ =>
      show win1_2.index t (0 : Fin 2) * 1 + 1 * 0 = 0
      omega
    | ⟨1, _⟩ =>
      show win1_2.index t (1 : Fin 2) * 256 + 1 * (j 1).val = win1_3.index t (1 : Fin 2) * 256 + 1 * (j 1).val
      omega
  rw [funext hx, funext hw, hb]
  rfl

/-- An index is in point `t`'s block iff each coordinate is in the block's range on its axis. -/
theorem mem_blk (t : Fin cfg1.N) (i : S8192x11008.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v5).slice (win1_3.rect t)).set ↔ _
  rw [View.set_slice_whole, Rect.mem_set_unit]
  exact Iff.rfl

/-- Every entry `(r, o)` lies in the block of the point `(r / 1024) · 43 + o / 256`. -/
theorem cover (i : S8192x11008.Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  have hlt : (i 0).val / 1024 * 43 + (i 1).val / 256 < 344 := by omega
  obtain ⟨e0, e1, e2, e3, e4, e5, e6, e7⟩ := idx_facts (⟨(i 0).val / 1024 * 43 + (i 1).val / 256, hlt⟩ : Fin cfg1.N)
  refine ⟨⟨(i 0).val / 1024 * 43 + (i 1).val / 256, hlt⟩, flush1_3 _, ?_⟩
  rw [mem_blk]
  intro a
  match a with
  | ⟨0, _⟩ =>
    show win1_3.index ⟨(i 0).val / 1024 * 43 + (i 1).val / 256, hlt⟩ (0 : Fin 2) * 1024 ≤ (i 0).val
      ∧ (i 0).val < win1_3.index ⟨(i 0).val / 1024 * 43 + (i 1).val / 256, hlt⟩ (0 : Fin 2) * 1024 + 1024
    rw [e6]
    show ((i 0).val / 1024 * 43 + (i 1).val / 256) / 43 * 1024 ≤ (i 0).val
      ∧ (i 0).val < ((i 0).val / 1024 * 43 + (i 1).val / 256) / 43 * 1024 + 1024
    omega
  | ⟨1, _⟩ =>
    show win1_3.index ⟨(i 0).val / 1024 * 43 + (i 1).val / 256, hlt⟩ (1 : Fin 2) * 256 ≤ (i 1).val
      ∧ (i 1).val < win1_3.index ⟨(i 0).val / 1024 * 43 + (i 1).val / 256, hlt⟩ (1 : Fin 2) * 256 + 256
    rw [e7]
    show ((i 0).val / 1024 * 43 + (i 1).val / 256) % 43 * 256 ≤ (i 1).val
      ∧ (i 1).val < ((i 0).val / 1024 * 43 + (i 1).val / 256) % 43 * 256 + 256
    omega

/-- THE ARRAY after the region: the product array of what the region was entered with. -/
theorem arr_eq (c : Dev nD) :
    (dat1 V c).arrAt 3 cfg1.N = arrY (V c main_v3) (V c main_v1) (V c main_v4) :=
  (dat1 V c).arrAt_eq_of_cover 3 (arrY (V c main_v3) (V c main_v1) (V c main_v4)) (fun t _ => flushed_eq V c t) cover

end Cert.KernelIdeal.Mat

end
-- ==== Proof.KValue.lean ====
/-
  The idealized kernel's result as the layer of the specification. Follow the buffers through the five segments:
  the first reshape lays the 352256 scales out as an 11008 × 32 matrix; the first region leaves the binarised weights
  of the launched weights and that matrix; the second stretch flattens the activations to 8192 × 4096 (the format change
  is the identity on extended reals) and lays the bias out as a 1 × 11008 row, touching nothing else; the second region
  leaves the product array of those; the last reshape cuts its 8192 rows into 4 × 2048. Entry `(a, r, o)` is therefore
  row `2048 a + r` of the activations, which is `x[a, r, ·]`, against row `o` of the binarised weights, plus
  `bias[o]`; and the scale under weight `(o, k)` is entry `(o, k / 128)` of the scale matrix, which is scale
  `32 o + k / 128 = (4096 o + k) / 128`: the weight's group in row-major order.
-/
import proofs.«158924_j65506841199020_2_alg».proof.Proof.QuantArr
import proofs.«158924_j65506841199020_2_alg».proof.Proof.MatArr
import Idealize.ShloMosaic.Lib.StableHlo.Run

set_option maxRecDepth 16384

noncomputable section

namespace Cert.KernelIdeal.KValue

open Cert.KernelIdeal Cert.KernelIdeal.Gen Cert.BinLinear
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The first region's entry contents and what it leaves -/

theorem entry0_weights (c : Dev nD) : V1 m ρ c main_arg1 = m ((c : Thread nD τ).loc main_arg1) := by
  show StableHlo.after hostOps0 (W0 m ρ c) (Proc.devRef .tc main_arg1) = _
  after_results

theorem entry0_scales (c : Dev nD) :
    V1 m ρ c main_v0 = shapeCast S11008x32 (m ((c : Thread nD τ).loc main_arg3)) shapeCasts_S352256_S11008x32 := by
  show StableHlo.after hostOps0 (W0 m ρ c) (Proc.devRef .tc main_v0) = _
  after_results
  rfl

/-- The binarised weights of the launched weights and scales. -/
def binarised (c : Dev nD) : S11008x4096.Idx → EReal :=
  Quant.arrQ (m ((c : Thread nD τ).loc main_arg1))
    (shapeCast S11008x32 (m ((c : Thread nD τ).loc main_arg3)) shapeCasts_S352256_S11008x32)

theorem region0 (c : Dev nD) : (dat0 (V1 m ρ) c).arrAt 2 cfg0.N = binarised m c := by
  rw [Quant.arr_eq (V1 m ρ) c, entry0_weights, entry0_scales]
  rfl

/-! ## The second region's entry contents and what it leaves -/

theorem exit0_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

theorem exit0_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem exit0_weights (c : Dev nD) : W2 m ρ c (Proc.devRef .tc main_v1) = binarised m c :=
  (W2_arr m ρ c 2).trans (region0 m ρ c)

/-- The activations as the second region finds them: flattened, the format change the identity. -/
def acts (c : Dev nD) : S8192x4096.Idx → EReal :=
  truncf (F := Ideal) .bf16 (shapeCast S8192x4096 (m ((c : Thread nD τ).loc main_arg0)) shapeCasts_S4x2048x4096_S8192x4096) bitsLt_bf16_f32

/-- The bias as the second region finds it: one row. -/
def biasRow (c : Dev nD) : S1x11008.Idx → EReal :=
  shapeCast S1x11008 (m ((c : Thread nD τ).loc main_arg2)) shapeCasts_S11008_S1x11008

theorem entry1_acts (c : Dev nD) : V3 m ρ c main_v3 = acts m c := by
  show StableHlo.after hostOps1 (W2 m ρ c) (Proc.devRef .tc main_v3) = _
  after_results
  rw [exit0_arg0]
  rfl

theorem entry1_weights (c : Dev nD) : V3 m ρ c main_v1 = binarised m c := by
  show StableHlo.after hostOps1 (W2 m ρ c) (Proc.devRef .tc main_v1) = _
  after_results
  exact exit0_weights m ρ c

theorem entry1_bias (c : Dev nD) : V3 m ρ c main_v4 = biasRow m c := by
  show StableHlo.after hostOps1 (W2 m ρ c) (Proc.devRef .tc main_v4) = _
  after_results
  rw [exit0_arg2]
  rfl

theorem region1 (c : Dev nD) :
    (dat1 (V3 m ρ) c).arrAt 3 cfg1.N = Mat.arrY (acts m c) (binarised m c) (biasRow m c) := by
  rw [Mat.arr_eq (V3 m ρ) c, entry1_acts, entry1_weights, entry1_bias]

/-! ## The result -/

theorem result_cast (c : Dev nD) :
    W5 m ρ c (Proc.devRef .tc main_v6)
      = shapeCast S4x2048x11008 (Mat.arrY (acts m c) (binarised m c) (biasRow m c)) shapeCasts_S8192x11008_S4x2048x11008 := by
  have e : W4 m ρ c (Proc.devRef .tc main_v5) = Mat.arrY (acts m c) (binarised m c) (biasRow m c) :=
    (W4_arr m ρ c 3).trans (region1 m ρ c)
  show StableHlo.after hostOps2 (W4 m ρ c) (Proc.devRef .tc main_v6) = _
  after_results
  rw [e]
  rfl

/-- THE KERNEL'S RESULT IS THE LAYER of the launched arrays. -/
theorem result_eq (c : Dev nD) :
    W5 m ρ c (Proc.devRef .tc main_v6)
      = layer (m ((c : Thread nD τ).loc main_arg0)) (m ((c : Thread nD τ).loc main_arg1))
          (m ((c : Thread nD τ).loc main_arg2)) (m ((c : Thread nD τ).loc main_arg3)) := by
  rw [result_cast]
  funext i
  obtain ⟨a, r, o, rfl⟩ : ∃ (a : Fin 4) (r : Fin 2048) (o : Fin 11008), i = ix3 a r o := ⟨i 0, i 1, i 2, eq_ix3 i⟩
  have ha := a.isLt
  have hr := r.isLt
  have ho := o.isLt
  have hrow : a.val * 2048 + r.val < 8192 := by omega
  refine (shapeCast_apply _ shapeCasts_S8192x11008_S4x2048x11008 (ix3 a r o)
    (ix2 (⟨a.val * 2048 + r.val, hrow⟩ : Fin 8192) o) ?_).trans ?_
  · rw [Shape.rowMajor_val_two, Shape.rowMajor_val_three]
    rfl
  · show (∑ k : Fin 4096, acts m c (ix2 (⟨a.val * 2048 + r.val, hrow⟩ : Fin 8192) k) * binarised m c (ix2 o k))
        + biasRow m c (ix2 (0 : Fin 1) o) = layerAt _ _ _ _ a r o
    unfold layerAt
    refine congrArg₂ (fun u v : EReal => u + v) (Finset.sum_congr rfl fun k _ => ?_) ?_
    · have hk := k.isLt
      refine congrArg₂ (fun u v : EReal => u * v) ?_ ?_
      · exact shapeCast_apply _ shapeCasts_S4x2048x4096_S8192x4096 (ix2 (⟨a.val * 2048 + r.val, hrow⟩ : Fin 8192) k) (ix3 a r k) (by
          rw [Shape.rowMajor_val_three, Shape.rowMajor_val_two]
          rfl)
      · unfold binarised Quant.arrQ qW
        refine congrArg₂ (fun u v : EReal => binW u v) rfl ?_
        exact shapeCast_apply _ shapeCasts_S352256_S11008x32 (ix2 o (Quant.scaleCol k)) (ix1 (grp o k)) (by
          rw [Shape.rowMajor_val_one, Shape.rowMajor_val_two]
          show (o.val * 4096 + k.val) / 128 = o.val * 32 + k.val / 128
          omega)
    · exact shapeCast_apply _ shapeCasts_S11008_S1x11008 (ix2 (0 : Fin 1) o) (ix1 o) (by
        rw [Shape.rowMajor_val_one, Shape.rowMajor_val_two]
        show o.val = 0 * 11008 + o.val
        omega)

end Cert.KernelIdeal.KValue

end
-- ==== Proof.RefValue.lean ====
/-
  The reference program's result is the layer of the specification. Read one operation at a time, entry `(a, r, o)` of the
  result is the sum over `k` of `x[a, r, k]` times entry `(o, k)` of the re-laid quantised weights, plus `bias[o]`.
  Entry `(o, k)` of the quantised weights is read through two reshapes — the matrix flattened and cut into rows of 128 —
  so it is the normalised form at weight `(o, k)` (flat position `o · 4096 + k`) and at the scale of group
  `(o · 4096 + k) / 128`. For real weights and scales the normalised form is the comparison form.
-/
import proofs.«158924_j65506841199020_2_alg».proof.Proof.Gen.ReferenceIdeal.Read
import proofs.«158924_j65506841199020_2_alg».proof.Proof.Spec

noncomputable section

namespace Cert.ReferenceIdeal.RefValue

open Cert.ReferenceIdeal Cert.ReferenceIdeal.Gen Cert.ReferenceIdeal.Read Cert.BinLinear
open Idealize.ShloMosaic Idealize.ShloMosaic.ValueIdx

/-- Through the two reshapes and back, weight `(o, k)` is read at `(o, k)`. -/
theorem weight_idx (o : Fin 11008) (k : Fin 4096) :
    idx_main_v0 (idx_main_v1 (idx_main_v18 (idx_main_v19 (ix2 o k)))) = ix2 o k := by
  have ho := o.isLt
  have hk := k.isLt
  funext a; apply Fin.ext
  match a with
  | ⟨0, _⟩ =>
    show ((o.val * 4096 + k.val) / 128 * 128 + (o.val * 4096 + k.val) % 128) / 4096 = o.val
    omega
  | ⟨1, _⟩ =>
    show ((o.val * 4096 + k.val) / 128 * 128 + (o.val * 4096 + k.val) % 128) % 4096 = k.val
    omega

/-- The scale under entry `(o, k)` is that of its group. -/
theorem scale_idx (o : Fin 11008) (k : Fin 4096) :
    idx_main_v5 (idx_main_v6 (idx_main_v18 (idx_main_v19 (ix2 o k)))) = ix1 (grp o k) := by
  funext a; apply Fin.ext
  match a with
  | ⟨0, _⟩ => rfl

/-- Entry `(o, k)` of the re-laid quantised weights is the normalised form at weight `(o, k)` and its group's scale. -/
theorem quantised_at (x1 : (⟨S11008x4096, .f32⟩ : BufTy).Contents (Elt Ideal)) (x3 : (⟨S352256, .f32⟩ : BufTy).Contents (Elt Ideal))
    (o : Fin 11008) (k : Fin 4096) :
    val_main_v19 (F := Ideal) x1 x3 (ix2 o k) = steW (x1 (ix2 o k)) (x3 (ix1 (grp o k))) := by
  simp only [val_main_v19_apply, val_main_v18_apply, val_main_v17_apply, val_main_v15_apply, val_main_v14_apply,
    val_main_v13_apply, val_main_v11_apply, val_main_v9_apply, val_main_v8_apply, val_main_v7_apply, val_main_v1_apply,
    val_main_v0_apply, val_main_v6_apply, val_main_v16_apply, val_main_v5_apply, val_main_v4_apply, val_main_v2_apply,
    val_main_v3_apply, val_main_cst_apply, val_main_v10_apply, val_main_cst_0_apply, val_main_v12_apply,
    val_main_cst_1_apply]
  rw [weight_idx, scale_idx]
  rfl

/-- THE REFERENCE IS THE LAYER, for real weights and scales. -/
theorem result_eq (x0 : (⟨S4x2048x4096, .f32⟩ : BufTy).Contents (Elt Ideal)) (x1 : (⟨S11008x4096, .f32⟩ : BufTy).Contents (Elt Ideal))
    (x2 : (⟨S11008, .f32⟩ : BufTy).Contents (Elt Ideal)) (x3 : (⟨S352256, .f32⟩ : BufTy).Contents (Elt Ideal))
    (h1 : ∀ i, ∃ r : ℝ, x1 i = (r : EReal)) (h3 : ∀ i, ∃ r : ℝ, x3 i = (r : EReal)) :
    val_main_v23 (F := Ideal) x0 x1 x2 x3 = layer x0 x1 x2 x3 := by
  funext i
  obtain ⟨a, r, o, rfl⟩ : ∃ (a : Fin 4) (r : Fin 2048) (o : Fin 11008), i = ix3 a r o := ⟨i 0, i 1, i 2, eq_ix3 i⟩
  rw [val_main_v23_apply, val_main_v20_apply, val_main_v22_apply, val_main_v21_apply]
  show (∑ k : Fin 4096, x0 (lidx_main_v20 (ix3 a r o) k) * val_main_v19 (F := Ideal) x1 x3 (ridx_main_v20 (ix3 a r o) k))
      + x2 (idx_main_v21 (idx_main_v22 (ix3 a r o))) = layerAt x0 x1 x2 x3 a r o
  unfold layerAt
  refine congrArg₂ (· + ·) (Finset.sum_congr rfl fun k _ => ?_) (congrArg x2 ?_)
  · have el : lidx_main_v20 (ix3 a r o) k = ix3 a r k := funext fun d => Fin.ext (by
      match d with
      | ⟨0, _⟩ => rfl
      | ⟨1, _⟩ => rfl
      | ⟨2, _⟩ => rfl)
    have er : ridx_main_v20 (ix3 a r o) k = ix2 o k := funext fun d => Fin.ext (by
      match d with
      | ⟨0, _⟩ => rfl
      | ⟨1, _⟩ => rfl)
    rw [el, er, quantised_at]
    unfold qW
    obtain ⟨w, hw⟩ := h1 (ix2 o k)
    obtain ⟨s, hs⟩ := h3 (ix1 (grp o k))
    rw [hw, hs, steW_coe]
  · funext d; apply Fin.ext
    match d with
    | ⟨0, _⟩ => rfl

end Cert.ReferenceIdeal.RefValue

end
-- ==== Proof.Finite.lean ====
/-
  From the precondition to real entries. The precondition is a conjunction of four `all(|x| < +∞)` tests, one per
  argument array, and the claim supposes it equal to one. A conjunction that is one has every conjunct one; an `all`
  that is one has every tested element one; and an extended real whose absolute value is below `+∞` is neither
  infinity, so it is a real number. Only the weights and the scales are needed as reals by the algebra.
-/
import proofs.«158924_j65506841199020_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exact absurd h (by simp [FloatOps.cmpf, FloatOps.hostAbsf, Ideal.cmp])
  | coe r => exact ⟨r, rfl⟩
  | top => exact absurd h (by simp [FloatOps.cmpf, FloatOps.hostAbsf, Ideal.cmp])

variable [Facts]

/-- Under the precondition every weight and every scale is a real number. -/
theorem reals (a0 : FVec Ideal S4x2048x4096 .f32) (a1 : FVec Ideal S11008x4096 .f32) (a2 : FVec Ideal S11008 .f32)
    (a3 : FVec Ideal S352256 .f32) (h : fn (F := Ideal) a0 a1 a2 a3 = fun _ => 1#1) :
    (∀ i, ∃ r : ℝ, a1 i = (r : EReal)) ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => real_of_abs_lt_inf (a1 i) ?_, fun i => real_of_abs_lt_inf (a3 i) ?_⟩
  · exact Host.reduce_andi_all _ _ _ _ _ h1 i
  · exact Host.reduce_andi_all _ _ _ _ _ h3 i

end Cert.Finite

end
-- ==== Proof.lean ====
/-
  A binary, group-scaled linear layer: a kernel in two regions against a plain reference.

  Both programs compute `y[a, r, o] = Σ_k x[a, r, k] · q[o, k] + bias[o]` where `q[o, k] = ± σ`, the sign that of
  weight `(o, k)` (plus at zero) and `σ = max(|scale g|, ε)` the step of the weight's group `g = (4096 o + k) / 128`.

  The kernel's first region writes `q` block by block from comparisons on the weight itself; its second region
  multiplies 1024-row blocks of the flattened activations by 256-row blocks of `q`, contracting the second axes, and adds
  the bias row. The reference normalises each weight by its step, takes the sign of the quotient with zero replaced by
  one, adds and subtracts `tanh` of the quotient, multiplies by the step again, and contracts with one product.

  The two agree on real weights and scales (the quotient of a real by a positive real is a real with the weight's sign,
  `tanh` of it is a real, adding then subtracting a real changes nothing), which is exactly what the precondition gives;
  nothing else about the inputs is used: sums and products over the extended reals are matched term by term, never
  rearranged. A change of float format is the identity on extended reals, so the kernel's half-precision operands are
  the values themselves.

  The frames of the two kernel programs and the reference's run are the generated ones; the conjuncts of the
  idealization, one per group of the first region's body, state that "one with the sign bit of `w`" is `-1` below zero
  and `1` otherwise.
-/
import proofs.«158924_j65506841199020_2_alg».proof.Defs
import proofs.«158924_j65506841199020_2_alg».proof.Proof.Gen.Kernel
import proofs.«158924_j65506841199020_2_alg».proof.Proof.Gen.Kernel.Skeleton
import proofs.«158924_j65506841199020_2_alg».proof.Proof.Gen.Kernel.Launch
import proofs.«158924_j65506841199020_2_alg».proof.Proof.Gen.Kernel.Points
import proofs.«158924_j65506841199020_2_alg».proof.Proof.Gen.Kernel.Frame
import proofs.«158924_j65506841199020_2_alg».proof.Proof.Gen.KernelIdeal
import proofs.«158924_j65506841199020_2_alg».proof.Proof.Gen.KernelIdeal.Skeleton
import proofs.«158924_j65506841199020_2_alg».proof.Proof.Gen.KernelIdeal.Launch
import proofs.«158924_j65506841199020_2_alg».proof.Proof.Gen.KernelIdeal.Points
import proofs.«158924_j65506841199020_2_alg».proof.Proof.Gen.KernelIdeal.Frame
import proofs.«158924_j65506841199020_2_alg».proof.Proof.Gen.ReferenceIdeal
import proofs.«158924_j65506841199020_2_alg».proof.Proof.Gen.ReferenceIdeal.Run
import proofs.«158924_j65506841199020_2_alg».proof.Proof.Gen.ReferenceIdeal.Read
import proofs.«158924_j65506841199020_2_alg».proof.Proof.Gen.Pre_finite_inputs
import proofs.«158924_j65506841199020_2_alg».proof.Proof.KRun
import proofs.«158924_j65506841199020_2_alg».proof.Proof.KValue
import proofs.«158924_j65506841199020_2_alg».proof.Proof.RefValue
import proofs.«158924_j65506841199020_2_alg».proof.Proof.Finite
import Idealize.ShloMosaic.Adequacy
import Idealize.ShloMosaic.Init

noncomputable section

namespace Cert.Proof

open Idealize.ShloMosaic Idealize.SL.Sem Cert.BinLinear

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- One conjunct per group of the binarising body: one with the sign bit of a weight is `-1` below zero, else `1`. -/
theorem preserves : Cert.preserves_Kernel_KernelIdeal :=
  ⟨IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32,
    IdealRules.sign_bit.statement Cert.KernelIdeal.S256x128 .f32⟩

/-- Both programs end with the layer of the launched arrays: the kernel by following its buffers through its five
    segments, the reference by reading its operations one at a time, on weights and scales the precondition makes real. -/
theorem algebraic : Cert.algebraic_KernelIdeal_ReferenceIdeal := by
  intro m ρ m' ρ' hpre hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.result_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h1, h3⟩ := Cert.Finite.reals _ _ _ _ (hpre c)
    rw [Cert.ReferenceIdeal.Read.val_main_v23_eq, (hagree c).1, (hagree c).2.1, (hagree c).2.2.1, (hagree c).2.2.2]
    exact Cert.ReferenceIdeal.RefValue.result_eq _ _ _ _ h1 h3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
